-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x1024 : Shape := ⟨2, ![512, 1024]⟩
abbrev S512 : Shape := ⟨1, ![512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512x1024 .f32) (main_arg8 : FVec F S512 .f32) (main_arg9 : FVec F S512x1024 .f32) (main_arg10 : FVec F S512 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x1024 .f32 := Host.absf main_arg9
  let main_cst_16 : FVec F S_ .f32 := constant S_ .f32 0x7F800000#32
  let main_v45 : FVec F S512x1024 .f32 := broadcastInDim S512x1024 ![] bcast_S_S512x1024 main_cst_16
  let main_v46 : IVec S512x1024 1 := cmpf .olt main_v44 main_v45
  let main_c_17 : IVec S_ 1 := constantI S_ 1 1#1
  let main_v47 : IVec S_ 1 := (fun x v => Host.reduce IntOp.andi x v reducesTo_S512x1024_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512 .f32) (main_arg5 : FVec F S512x1024 .f32) (main_arg6 : FVec F S512 .f32) (main_arg7 : FVec F S512x1024 .f32) (main_arg8 : FVec F S512 .f32) (main_arg9 : FVec F S512x1024 .f32) (main_arg10 : FVec F S512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32768x512 .f32) (main_arg1 : FVec F S32768x512 .f32) (main_arg2 : FVec F S32768x512 .f32) (main_arg3 : FVec F S512x1024 .f32) (main_arg4 : FVec F S512 .f32) (main_arg5 : FVec F S512x1024 .f32) (main_arg6 : FVec F S512 .f32) (main_arg7 : FVec F S512x1024 .f32) (main_arg8 : FVec F S512 .f32) (main_arg9 : FVec F S512x1024 .f32) (main_arg10 : FVec F S512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_arg8 main_arg9 main_arg10 main_v13 main_v16
-- ==== Kernel.lean ====
abbrev S32768x512 : Shape := ⟨2, ![32768, 512]⟩
abbrev S512x1024 : Shape := ⟨2, ![512, 1024]⟩
abbrev S512 : Shape := ⟨1, ![512]⟩
abbrev S2048x1024 : Shape := ⟨2, ![2048, 1024]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩

abbrev nBuf : Space → Nat
  | .hbm => 17
  | .vmem => 12
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S512x1024, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512x1024, .f32⟩
  | .hbm, ⟨10, _⟩ => ⟨S512, .f32⟩
  | .hbm, ⟨11, _⟩ => ⟨S2048x1024, .f32⟩
  | .hbm, ⟨12, _⟩ => ⟨S2048x1024, .bf16⟩
  | .hbm, ⟨13, _⟩ => ⟨S2048, .f32⟩
  | .hbm, ⟨14, _⟩ => ⟨S1x2048, .f32⟩
  | .hbm, ⟨15, _⟩ => ⟨S32768x512, .f32⟩
  | .hbm, ⟨16, _⟩ => ⟨S32768x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S2048x1024, .bf16⟩
  | .local _ .vmem, ⟨7, _⟩ => ⟨S1x2048, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S512x1024_S512x1024_S512x1024_S512x1024_S2048x1024_d0 : Shape.Concatenates [S512x1024, S512x1024, S512x1024, S512x1024] S2048x1024 0
  bitsLt_bf16_f32 : FTy.bits .bf16 < FTy.bits .f32
  concatenates_S512_S512_S512_S512_S2048_d0 : Shape.Concatenates [S512, S512, S512, S512] S2048 0
  shapeCasts_S2048_S1x2048 : S2048.ShapeCasts S1x2048
  inb_S512x512_S512x512_0_0 : ∀ a, (![0, 0] : Fin 2 → Nat) a + S512x512.size a ≤ S512x512.size a
  h_S512x512 : 0 < S512x512.numel
  concatenates_S512x512_S512x512_S512x1024_d1 : Shape.Concatenates [S512x512, S512x512] S512x1024 1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S32768x512.size a
  hwx0_1 : ∀ i : grid0.Coords, EltTy.bits .f32 = 32 ∨ (Rect.block (s := S32768x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S32768x512.size a
  hwx0_2 : ∀ i : grid0.Coords, EltTy.bits .f32 = 32 ∨ (Rect.block (s := S32768x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S32768x512.size a
  hwx0_5 : ∀ i : grid0.Coords, EltTy.bits .f32 = 32 ∨ (Rect.block (s := S32768x512) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S32768x512.size a
  hwx0_6 : ∀ i : grid0.Coords, EltTy.bits .f32 = 32 ∨ (Rect.block (s := S32768x512) S512x512.size (cc0_transform_6 i) (hinb0_6 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S512x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x1024 : Shape := ⟨2, ![512, 1024]⟩
abbrev S512 : Shape := ⟨1, ![512]⟩
abbrev S32768x1024 : Shape := ⟨2, ![32768, 1024]⟩
abbrev S1024x512 : Shape := ⟨2, ![1024, 512]⟩
abbrev S1x512 : Shape := ⟨2, ![1, 512]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S512x1024, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512x1024, .f32⟩
  | .hbm, ⟨10, _⟩ => ⟨S512, .f32⟩
  | .hbm, ⟨11, _⟩ => ⟨S32768x1024, .f32⟩
  | .hbm, ⟨12, _⟩ => ⟨S1024x512, .f32⟩
  | .hbm, ⟨13, _⟩ => ⟨S32768x512, .f32⟩
  | .hbm, ⟨14, _⟩ => ⟨S1x512, .f32⟩
  | .hbm, ⟨15, _⟩ => ⟨S32768x512, .f32⟩
  | .hbm, ⟨16, _⟩ => ⟨S32768x512, .f32⟩
  | .hbm, ⟨17, _⟩ => ⟨S32768x512, .f32⟩
  | .hbm, ⟨18, _⟩ => ⟨S32768x512, .f32⟩
  | .hbm, ⟨19, _⟩ => ⟨S_, .f32⟩
  | .hbm, ⟨20, _⟩ => ⟨S32768x512, .f32⟩
  | .hbm, ⟨21, _⟩ => ⟨S32768x512, .f32⟩
  | .hbm, ⟨22, _⟩ => ⟨S_, .f32⟩
  | .hbm, ⟨23, _⟩ => ⟨S32768x512, .f32⟩
  | .hbm, ⟨24, _⟩ => ⟨S32768x512, .f32⟩
  | .hbm, ⟨25, _⟩ => ⟨S1024x512, .f32⟩
  | .hbm, ⟨26, _⟩ => ⟨S32768x512, .f32⟩
  | .hbm, ⟨27, _⟩ => ⟨S1x512, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S_, .f32⟩
  | .hbm, ⟨33, _⟩ => ⟨S32768x512, .f32⟩
  | .hbm, ⟨34, _⟩ => ⟨S32768x512, .f32⟩
  | .hbm, ⟨35, _⟩ => ⟨S_, .f32⟩
  | .hbm, ⟨36, _⟩ => ⟨S32768x512, .f32⟩
  | .hbm, ⟨37, _⟩ => ⟨S32768x512, .f32⟩
  | .hbm, ⟨38, _⟩ => ⟨S1024x512, .f32⟩
  | .hbm, ⟨39, _⟩ => ⟨S32768x512, .f32⟩
  | .hbm, ⟨40, _⟩ => ⟨S1x512, .f32⟩
  | .hbm, ⟨41, _⟩ => ⟨S32768x512, .f32⟩
  | .hbm, ⟨42, _⟩ => ⟨S32768x512, .f32⟩
  | .hbm, ⟨43, _⟩ => ⟨S32768x512, .f32⟩
  | .hbm, ⟨44, _⟩ => ⟨S1024x512, .f32⟩
  | .hbm, ⟨45, _⟩ => ⟨S32768x512, .f32⟩
  | .hbm, ⟨46, _⟩ => ⟨S1x512, .f32⟩
  | .hbm, ⟨47, _⟩ => ⟨S32768x512, .f32⟩
  | .hbm, ⟨48, _⟩ => ⟨S32768x512, .f32⟩
  | .hbm, ⟨49, _⟩ => ⟨S32768x512, .f32⟩
  | .hbm, ⟨50, _⟩ => ⟨S32768x512, .f32⟩
  | .hbm, ⟨51, _⟩ => ⟨S_, .f32⟩
  | .hbm, ⟨52, _⟩ => ⟨S32768x512, .f32⟩
  | .hbm, ⟨53, _⟩ => ⟨S32768x512, .f32⟩
  | .hbm, ⟨54, _⟩ => ⟨S_, .f32⟩
  | .hbm, ⟨55, _⟩ => ⟨S32768x512, .f32⟩
  | .hbm, ⟨56, _⟩ => ⟨S32768x512, .f32⟩
  | .hbm, ⟨57, _⟩ => ⟨S32768x512, .f32⟩
  | .hbm, ⟨58, _⟩ => ⟨S32768x512, .f32⟩
  | .hbm, ⟨59, _⟩ => ⟨S32768x512, .f32⟩
  | .hbm, ⟨60, _⟩ => ⟨S32768x512, .f32⟩
  | .hbm, ⟨61, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]

class Facts₀ : Prop where
  concatenates_S32768x512_S32768x512_S32768x1024_d1 : Shape.Concatenates [S32768x512, S32768x512] S32768x1024 1
  transposes_S512x1024_S1024x512_1_0 : S512x1024.Transposes [1, 0] S1024x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  dot_S32768x1024_S1024x512_S32768x512_1_0_0_1_n_n_wf : DotDims.WF S32768x1024 S1024x512 S32768x512 [1] [0] [0] [1] [] []

variable [Facts₀]

def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf

class Facts : Prop extends Facts₀ where

variable [Facts]
-- ==== Proof.EntryBits.lean ====
/-
  What the one kernel launch of the program finds in memory.

  Before the launch the program runs four array operations on the host side of each core: the four gates' weight
  matrices are stacked along the rows into one matrix of 2048 rows, that matrix is converted to the narrower float
  format, the four biases are laid end to end into one vector of length 2048, and that vector is viewed as one row.
  `V m c b` is the contents of buffer `b` of core `c` after these four operations, started from the memory `m`.
  None of the four writes an argument array, so every argument is found as it was launched; and the program's text up
  to the launch is these four operations followed by the launch (`hmain`).
-/
import proofs.«156865_j317827580479_2_alg».proof.Proof.Gen.Kernel.Launch
import Idealize.ShloMosaic.Lib.Pipeline.FrameBody

noncomputable section

namespace Cert.Kernel.Hand

open Cert.Kernel Cert.Kernel.Gen
open Idealize.ShloMosaic Idealize.ShloMosaic.TcCoe
open Idealize.SL Idealize.SL.Sem
open Idealize.ShloMosaic.Rounds

variable {F : FTy → Type} [FloatOps F]

variable (m : (ℓ : Loc nD τ sig) → Buf (Elt F) ℓ)

/-- Core `c`'s buffers when the kernel is launched: after the four host operations. -/
abbrev V (c : Dev nD) (b : Ref sig .tc) : Buf (Elt F) ((c : Thread nD τ).loc b) := StableHlo.after hostOps0 (fun b => m (c, b)) b

/-- None of the four allocates a buffer. -/
theorem hostOps0_fresh : (hostOps0 : List (HloOp τ sig (Elt F))).Forall fun op => op.fresh = ∅ := by
  simp only [List.Forall]; repeat' constructor

/-- The program up to the launch: the four host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Each of the four operations writes one buffer, and it is not the one named: decided reference by reference. -/
local macro "not_written" : tactic => `(tactic|
  (simp only [hostOps0, List.Forall, StableHlo.nary_writes, StableHlo.unary_writes, StableHlo.reshape_writes, Finset.mem_singleton]
   repeat' apply And.intro
   all_goals exact StableHlo.devRef_ne_of_ne (by decide)))

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by not_written))
/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by not_written))
/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by not_written))
/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by not_written))
/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by not_written))
/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by not_written))
/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by not_written))
/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by not_written))
/-- No host operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by not_written))
/-- No host operation before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by not_written))
/-- No host operation before the region writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by not_written))

end Cert.Kernel.Hand

end
-- ==== Proof.FrameBits.lean ====
/-
  The launch of the LSTM kernel runs to its end, faults nowhere and leaves the argument arrays as they were; and each
  of its two result arrays ends at what the grid's points wrote back, one block of 512 rows per point.

  The grid has 64 points.  At point `t` the three batch operands (input, hidden and cell rows) are staged as the block
  of rows `512·t … 512·t + 511`, the stacked weights and the stacked bias row are staged whole (fetched once, at the
  first point, and found in place afterwards), and the two result blocks are written back.  The body loads the five
  staged operands whole, computes, and stores the two result blocks whole; so after the body each result's staging
  buffer holds a function of the five operand blocks alone (`out0_5`, `out0_6`: the body's two stored values).
  From that, the per-point obligation of the launch theorem, the run of the whole program, and the frame.
-/
import proofs.«156865_j317827580479_2_alg».proof.Proof.EntryBits
import proofs.«156865_j317827580479_2_alg».proof.Proof.Gen.Kernel.Skeleton
import proofs.«156865_j317827580479_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operands' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether or not it was fetched there. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether or not it was fetched there. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether or not it was fetched there. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether or not it was fetched there. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether or not it was fetched there. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the launch theorem -/

/-- A run that ends with every operand array at what the launch theorem computes, and every other buffer as the launch
    found it, leaves the eleven argument arrays as they were: the three batch operands are staged inputs, the eight
    weight and bias arrays are read by the host operations only. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## What the body leaves in the two result buffers -/

/-- A whole block of 512 rows of width 512. -/
abbrev rB : Rect S512x512 := Rect.unit (s := S512x512) ![0, 0] S512x512.size inb_S512x512_S512x512_0_0
/-- The whole stacked weight matrix. -/
abbrev rW : Rect S2048x1024 := Rect.unit (s := S2048x1024) ![0, 0] S2048x1024.size inb_S2048x1024_S2048x1024_0_0
/-- The whole stacked bias row. -/
abbrev rR : Rect S1x2048 := Rect.unit (s := S1x2048) ![0, 0] S1x2048.size inb_S1x2048_S1x2048_0_0

/-- The new hidden block from the five operand blocks: the body's first store. -/
def out0_5 (x0 x1 x2 : Vec F S512x512 .f32) (x3 : Vec F S2048x1024 .bf16) (x4 : Vec F S1x2048 .f32) : Vec F S512x512 .f32 :=
  View.canon [⟨rB, k0_pay3 (View.ld x0 rB) (View.ld x1 rB) (View.ld x2 rB) (View.ld x3 rW) (View.ld x4 rR)⟩]

/-- The new cell block from the five operand blocks: the body's second store. -/
def out0_6 (x0 x1 x2 : Vec F S512x512 .f32) (x3 : Vec F S2048x1024 .bf16) (x4 : Vec F S1x2048 .f32) : Vec F S512x512 .f32 :=
  View.canon [⟨rB, k0_pay2 (View.ld x0 rB) (View.ld x1 rB) (View.ld x2 rB) (View.ld x3 rW) (View.ld x4 rR)⟩]

/-- One store of the whole block covers the block. -/
theorem cover0 (p0 : Vec F S512x512 .f32) (y : S512x512.Idx) :
    ∃ pc ∈ ([⟨rB, p0⟩] : List (View.Piece (Elt F) S512x512 .f32)), y ∈ pc.1.set :=
  View.cover_of_tiled [⟨rB, p0⟩] S512x512.size (by rfl) y

/-! ## The body's triple -/

set_option maxHeartbeats 1000000 in
/-- The body on whole staging buffers, the five operands' at contents `x0 … x4` and the two results' at anything, runs
    to its end holding the operands' as they were and the results' at `out0_5`, `out0_6` of the operands'. -/
theorem sound_kernel (c : Dev nD) (E : Set ℕ) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x512 .f32) (harg6 : arg6.IsWhole) (arg7 : Memref sig .tc .vmem S512x512 .f32) (harg7 : arg7.IsWhole)
    (x0 x1 x2 : Vec F S512x512 .f32) (x3 : Vec F S2048x1024 .bf16) (x4 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The launch theorem's proof data -/

/-- On core `c`: the arrays as the launch finds them; after the body at point `t` each operand's buffer at its block
    and each result's at the body's stored value of the operand blocks; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
  Φ _ := Pipeline.ΦA spec0 c
  q _ := fullShare
  owed _ := 0

/-- The proof data's arrays are the launch-time contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The obligation at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the operands' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each operand array at what the
    launch theorem computes from the proof data and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end, faults nowhere, and leaves its eleven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.EntryIdeal.lean ====
/-
  What the one kernel launch of the program finds in memory.

  Before the launch the program runs four array operations on the host side of each core: the four gates' weight
  matrices are stacked along the rows into one matrix of 2048 rows, that matrix is converted to the narrower float
  format, the four biases are laid end to end into one vector of length 2048, and that vector is viewed as one row.
  `V m c b` is the contents of buffer `b` of core `c` after these four operations, started from the memory `m`.
  None of the four writes an argument array, so every argument is found as it was launched; and the program's text up
  to the launch is these four operations followed by the launch (`hmain`).
-/
import proofs.«156865_j317827580479_2_alg».proof.Proof.Gen.KernelIdeal.Launch
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.Sem
open Idealize.ShloMosaic.Rounds

variable {F : FTy → Type} [FloatOps F]

variable (m : (ℓ : Loc nD τ sig) → Buf (Elt F) ℓ)

/-- Core `c`'s buffers when the kernel is launched: after the four host operations. -/
abbrev V (c : Dev nD) (b : Ref sig .tc) : Buf (Elt F) ((c : Thread nD τ).loc b) := StableHlo.after hostOps0 (fun b => m (c, b)) b

/-- None of the four allocates a buffer. -/
theorem hostOps0_fresh : (hostOps0 : List (HloOp τ sig (Elt F))).Forall fun op => op.fresh = ∅ := by
  simp only [List.Forall]; repeat' constructor

/-- The program up to the launch: the four host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Each of the four operations writes one buffer, and it is not the one named: decided reference by reference. -/
local macro "not_written" : tactic => `(tactic|
  (simp only [hostOps0, List.Forall, StableHlo.nary_writes, StableHlo.unary_writes, StableHlo.reshape_writes, Finset.mem_singleton]
   repeat' apply And.intro
   all_goals exact StableHlo.devRef_ne_of_ne (by decide)))

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by not_written))
/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by not_written))
/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by not_written))
/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by not_written))
/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by not_written))
/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by not_written))
/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by not_written))
/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by not_written))
/-- No host operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by not_written))
/-- No host operation before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by not_written))
/-- No host operation before the region writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by not_written))

end Cert.KernelIdeal.Hand

end
-- ==== Proof.FrameIdeal.lean ====
/-
  The launch of the LSTM kernel runs to its end, faults nowhere and leaves the argument arrays as they were; and each
  of its two result arrays ends at what the grid's points wrote back, one block of 512 rows per point.

  The grid has 64 points.  At point `t` the three batch operands (input, hidden and cell rows) are staged as the block
  of rows `512·t … 512·t + 511`, the stacked weights and the stacked bias row are staged whole (fetched once, at the
  first point, and found in place afterwards), and the two result blocks are written back.  The body loads the five
  staged operands whole, computes, and stores the two result blocks whole; so after the body each result's staging
  buffer holds a function of the five operand blocks alone (`out0_5`, `out0_6`: the body's two stored values).
  From that, the per-point obligation of the launch theorem, the run of the whole program, and the frame.
-/
import proofs.«156865_j317827580479_2_alg».proof.Proof.EntryIdeal
import proofs.«156865_j317827580479_2_alg».proof.Proof.Gen.KernelIdeal.Skeleton
import proofs.«156865_j317827580479_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operands' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether or not it was fetched there. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether or not it was fetched there. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether or not it was fetched there. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether or not it was fetched there. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether or not it was fetched there. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the launch theorem -/

/-- A run that ends with every operand array at what the launch theorem computes, and every other buffer as the launch
    found it, leaves the eleven argument arrays as they were: the three batch operands are staged inputs, the eight
    weight and bias arrays are read by the host operations only. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## What the body leaves in the two result buffers -/

/-- A whole block of 512 rows of width 512. -/
abbrev rB : Rect S512x512 := Rect.unit (s := S512x512) ![0, 0] S512x512.size inb_S512x512_S512x512_0_0
/-- The whole stacked weight matrix. -/
abbrev rW : Rect S2048x1024 := Rect.unit (s := S2048x1024) ![0, 0] S2048x1024.size inb_S2048x1024_S2048x1024_0_0
/-- The whole stacked bias row. -/
abbrev rR : Rect S1x2048 := Rect.unit (s := S1x2048) ![0, 0] S1x2048.size inb_S1x2048_S1x2048_0_0

/-- The new hidden block from the five operand blocks: the body's first store. -/
def out0_5 (x0 x1 x2 : Vec F S512x512 .f32) (x3 : Vec F S2048x1024 .bf16) (x4 : Vec F S1x2048 .f32) : Vec F S512x512 .f32 :=
  View.canon [⟨rB, k0_pay3 (View.ld x0 rB) (View.ld x1 rB) (View.ld x2 rB) (View.ld x3 rW) (View.ld x4 rR)⟩]

/-- The new cell block from the five operand blocks: the body's second store. -/
def out0_6 (x0 x1 x2 : Vec F S512x512 .f32) (x3 : Vec F S2048x1024 .bf16) (x4 : Vec F S1x2048 .f32) : Vec F S512x512 .f32 :=
  View.canon [⟨rB, k0_pay2 (View.ld x0 rB) (View.ld x1 rB) (View.ld x2 rB) (View.ld x3 rW) (View.ld x4 rR)⟩]

/-- One store of the whole block covers the block. -/
theorem cover0 (p0 : Vec F S512x512 .f32) (y : S512x512.Idx) :
    ∃ pc ∈ ([⟨rB, p0⟩] : List (View.Piece (Elt F) S512x512 .f32)), y ∈ pc.1.set :=
  View.cover_of_tiled [⟨rB, p0⟩] S512x512.size (by rfl) y

/-! ## The body's triple -/

set_option maxHeartbeats 1000000 in
/-- The body on whole staging buffers, the five operands' at contents `x0 … x4` and the two results' at anything, runs
    to its end holding the operands' as they were and the results' at `out0_5`, `out0_6` of the operands'. -/
theorem sound_kernel (c : Dev nD) (E : Set ℕ) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x512 .f32) (harg6 : arg6.IsWhole) (arg7 : Memref sig .tc .vmem S512x512 .f32) (harg7 : arg7.IsWhole)
    (x0 x1 x2 : Vec F S512x512 .f32) (x3 : Vec F S2048x1024 .bf16) (x4 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The launch theorem's proof data -/

/-- On core `c`: the arrays as the launch finds them; after the body at point `t` each operand's buffer at its block
    and each result's at the body's stored value of the operand blocks; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
  Φ _ := Pipeline.ΦA spec0 c
  q _ := fullShare
  owed _ := 0

/-- The proof data's arrays are the launch-time contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The obligation at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the operands' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each operand array at what the
    launch theorem computes from the proof data and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end, faults nowhere, and leaves its eleven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Hand

end
-- ==== Proof.LibStack4.lean ====
/-
  Four arrays of one shape joined along the leading axis, read at an entry: general lemmas.

  Joining four matrices of `a` rows each on top of one another gives a matrix whose row `g·a + q` is row `q` of matrix
  number `g`; laying four vectors of length `a` end to end gives a vector whose entry `g·a + q` is entry `q` of vector
  number `g`.  And a vector viewed as a matrix of one row reads, at `(0, j)`, the vector at `j`.
-/
import Idealize.ShloMosaic.Lib.Pipeline.Value
import Idealize.ShloMosaic.Lib.ValueIdx

noncomputable section

namespace Cert.LibStack4

open Idealize.ShloMosaic Idealize.ShloMosaic.ValueIdx

variable {α : Type} {a k n : ℕ}

/-- Row `g·a + q` of four matrices of `a` rows stacked along the rows is row `q` of matrix number `g`. -/
theorem stackRows_apply (X : Fin 4 → (⟨2, ![a, k]⟩ : Shape).Idx → α)
    (h : Shape.Concatenates [(⟨2, ![a, k]⟩ : Shape), ⟨2, ![a, k]⟩, ⟨2, ![a, k]⟩, ⟨2, ![a, k]⟩] ⟨2, ![n, k]⟩ 0)
    (g : Fin 4) (q : Fin a) (j : Fin k) (r : Fin n) (hr : r.val = g.val * a + q.val) :
    concatenate ⟨2, ![n, k]⟩ 0 [⟨⟨2, ![a, k]⟩, X 0⟩, ⟨⟨2, ![a, k]⟩, X 1⟩, ⟨⟨2, ![a, k]⟩, X 2⟩, ⟨⟨2, ![a, k]⟩, X 3⟩] h (ix2 r j)
      = X g (ix2 q j) := by
  refine concatenate_apply_piece (t := ⟨2, ![n, k]⟩) (0 : Fin 2)
    [⟨⟨2, ![a, k]⟩, X 0⟩, ⟨⟨2, ![a, k]⟩, X 1⟩, ⟨⟨2, ![a, k]⟩, X 2⟩, ⟨⟨2, ![a, k]⟩, X 3⟩] h _ g.val (by simp) ⟨2, ![a, k]⟩ (X g)
    (by fin_cases g <;> rfl) rfl (g.val * a) (by fin_cases g <;> simp <;> omega) (ix2 q j) (fun b hb => ?_) ?_
  · match b with
    | ⟨0, _⟩ => exact absurd rfl hb
    | ⟨1, _⟩ => rfl
  · exact hr.symm

/-- Entry `g·a + q` of four vectors of length `a` laid end to end is entry `q` of vector number `g`. -/
theorem stackVecs_apply (X : Fin 4 → (⟨1, ![a]⟩ : Shape).Idx → α)
    (h : Shape.Concatenates [(⟨1, ![a]⟩ : Shape), ⟨1, ![a]⟩, ⟨1, ![a]⟩, ⟨1, ![a]⟩] ⟨1, ![n]⟩ 0)
    (g : Fin 4) (q : Fin a) (r : Fin n) (hr : r.val = g.val * a + q.val) :
    concatenate ⟨1, ![n]⟩ 0 [⟨⟨1, ![a]⟩, X 0⟩, ⟨⟨1, ![a]⟩, X 1⟩, ⟨⟨1, ![a]⟩, X 2⟩, ⟨⟨1, ![a]⟩, X 3⟩] h (ix1 r) = X g (ix1 q) := by
  refine concatenate_apply_piece (t := ⟨1, ![n]⟩) (0 : Fin 1)
    [⟨⟨1, ![a]⟩, X 0⟩, ⟨⟨1, ![a]⟩, X 1⟩, ⟨⟨1, ![a]⟩, X 2⟩, ⟨⟨1, ![a]⟩, X 3⟩] h _ g.val (by simp) ⟨1, ![a]⟩ (X g)
    (by fin_cases g <;> rfl) rfl (g.val * a) (by fin_cases g <;> simp <;> omega) (ix1 q) (fun b hb => ?_) ?_
  · match b with
    | ⟨0, _⟩ => exact absurd rfl hb
  · exact hr.symm

/-- A vector of length `n` viewed as one row, read at `(0, j)`, is the vector at `j`. -/
theorem row_of_vec (v : (⟨1, ![n]⟩ : Shape).Idx → α) (h : (⟨1, ![n]⟩ : Shape).ShapeCasts ⟨2, ![1, n]⟩) (j : Fin n) :
    shapeCast ⟨2, ![1, n]⟩ v h (ix2 (0 : Fin 1) j) = v (ix1 j) := by
  refine shapeCast_apply v h _ (ix1 j) ?_
  rw [Shape.rowMajor_val_one, Shape.rowMajor_val_two]
  show j.val = 0 * n + j.val
  omega

end Cert.LibStack4

end
-- ==== Proof.HostPrefix.lean ====
/-
  The stacked weights and the stacked bias row the kernel is launched with, entry by entry.

  The host stacks the four gates' weight matrices along the rows, forget, input, output, candidate, and converts the
  stack to the narrower float format, which over the extended reals changes nothing; so row `512·a + q` of the stack is
  row `q` of gate `a`'s matrix.  It lays the four biases end to end in the same order and views the vector of length
  2048 as one row; so entry `(0, 512·a + q)` of the row is entry `q` of gate `a`'s bias.
-/
import proofs.«156865_j317827580479_2_alg».proof.Proof.EntryIdeal
import proofs.«156865_j317827580479_2_alg».proof.Proof.LibStack4
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- The stacked weights: the four matrices joined along the rows, then converted. -/
theorem V_wall_eq (c : Dev nD) :
    (V m c main_v1 : S2048x1024.Idx → EReal)
      = concatenate S2048x1024 0 [⟨S512x1024, m ((c : Thread nD τ).loc main_arg3)⟩, ⟨S512x1024, m ((c : Thread nD τ).loc main_arg5)⟩, ⟨S512x1024, m ((c : Thread nD τ).loc main_arg7)⟩, ⟨S512x1024, m ((c : Thread nD τ).loc main_arg9)⟩]
          concatenates_S512x1024_S512x1024_S512x1024_S512x1024_S2048x1024_d0 := by
  dsimp only [V, hostOps0]
  after_results
  rfl

/-- The stacked bias row: the four vectors laid end to end, viewed as one row. -/
theorem V_ball_eq (c : Dev nD) :
    (V m c main_v3 : S1x2048.Idx → EReal)
      = shapeCast S1x2048 (concatenate S2048 0 [⟨S512, m ((c : Thread nD τ).loc main_arg4)⟩, ⟨S512, m ((c : Thread nD τ).loc main_arg6)⟩, ⟨S512, m ((c : Thread nD τ).loc main_arg8)⟩, ⟨S512, m ((c : Thread nD τ).loc main_arg10)⟩]
          concatenates_S512_S512_S512_S512_S2048_d0) shapeCasts_S2048_S1x2048 := by
  dsimp only [V, hostOps0]
  after_results
  rfl

/-- Row `q` of the stacked weights is row `q` of the forget gate's weights. -/
theorem V_wall_0 (c : Dev nD) (q : Fin 512) (k : Fin 1024) :
    V m c main_v1 (ix2 (⟨q.val, by have := q.isLt; omega⟩ : Fin 2048) k) = m ((c : Thread nD τ).loc main_arg3) (ix2 q k) := by
  rw [V_wall_eq]
  exact Cert.LibStack4.stackRows_apply ![m ((c : Thread nD τ).loc main_arg3), m ((c : Thread nD τ).loc main_arg5), m ((c : Thread nD τ).loc main_arg7), m ((c : Thread nD τ).loc main_arg9)]
    concatenates_S512x1024_S512x1024_S512x1024_S512x1024_S2048x1024_d0 (0 : Fin 4) q k _ (by show q.val = 0 * 512 + q.val; omega)

/-- Row `512 + q` of the stacked weights is row `q` of the input gate's weights. -/
theorem V_wall_1 (c : Dev nD) (q : Fin 512) (k : Fin 1024) :
    V m c main_v1 (ix2 (⟨512 + q.val, by have := q.isLt; omega⟩ : Fin 2048) k) = m ((c : Thread nD τ).loc main_arg5) (ix2 q k) := by
  rw [V_wall_eq]
  exact Cert.LibStack4.stackRows_apply ![m ((c : Thread nD τ).loc main_arg3), m ((c : Thread nD τ).loc main_arg5), m ((c : Thread nD τ).loc main_arg7), m ((c : Thread nD τ).loc main_arg9)]
    concatenates_S512x1024_S512x1024_S512x1024_S512x1024_S2048x1024_d0 (1 : Fin 4) q k _ (by show 512 + q.val = 1 * 512 + q.val; omega)

/-- Row `1024 + q` of the stacked weights is row `q` of the output gate's weights. -/
theorem V_wall_2 (c : Dev nD) (q : Fin 512) (k : Fin 1024) :
    V m c main_v1 (ix2 (⟨1024 + q.val, by have := q.isLt; omega⟩ : Fin 2048) k) = m ((c : Thread nD τ).loc main_arg7) (ix2 q k) := by
  rw [V_wall_eq]
  exact Cert.LibStack4.stackRows_apply ![m ((c : Thread nD τ).loc main_arg3), m ((c : Thread nD τ).loc main_arg5), m ((c : Thread nD τ).loc main_arg7), m ((c : Thread nD τ).loc main_arg9)]
    concatenates_S512x1024_S512x1024_S512x1024_S512x1024_S2048x1024_d0 (2 : Fin 4) q k _ (by show 1024 + q.val = 2 * 512 + q.val; omega)

/-- Row `1536 + q` of the stacked weights is row `q` of the candidate gate's weights. -/
theorem V_wall_3 (c : Dev nD) (q : Fin 512) (k : Fin 1024) :
    V m c main_v1 (ix2 (⟨1536 + q.val, by have := q.isLt; omega⟩ : Fin 2048) k) = m ((c : Thread nD τ).loc main_arg9) (ix2 q k) := by
  rw [V_wall_eq]
  exact Cert.LibStack4.stackRows_apply ![m ((c : Thread nD τ).loc main_arg3), m ((c : Thread nD τ).loc main_arg5), m ((c : Thread nD τ).loc main_arg7), m ((c : Thread nD τ).loc main_arg9)]
    concatenates_S512x1024_S512x1024_S512x1024_S512x1024_S2048x1024_d0 (3 : Fin 4) q k _ (by show 1536 + q.val = 3 * 512 + q.val; omega)

/-- Entry `q` of the stacked bias row is entry `q` of the forget gate's bias. -/
theorem V_ball_0 (c : Dev nD) (q : Fin 512) :
    V m c main_v3 (ix2 (0 : Fin 1) (⟨q.val, by have := q.isLt; omega⟩ : Fin 2048)) = m ((c : Thread nD τ).loc main_arg4) (ix1 q) := by
  rw [V_ball_eq, Cert.LibStack4.row_of_vec]
  exact Cert.LibStack4.stackVecs_apply ![m ((c : Thread nD τ).loc main_arg4), m ((c : Thread nD τ).loc main_arg6), m ((c : Thread nD τ).loc main_arg8), m ((c : Thread nD τ).loc main_arg10)]
    concatenates_S512_S512_S512_S512_S2048_d0 (0 : Fin 4) q _ (by show q.val = 0 * 512 + q.val; omega)

/-- Entry `512 + q` of the stacked bias row is entry `q` of the input gate's bias. -/
theorem V_ball_1 (c : Dev nD) (q : Fin 512) :
    V m c main_v3 (ix2 (0 : Fin 1) (⟨512 + q.val, by have := q.isLt; omega⟩ : Fin 2048)) = m ((c : Thread nD τ).loc main_arg6) (ix1 q) := by
  rw [V_ball_eq, Cert.LibStack4.row_of_vec]
  exact Cert.LibStack4.stackVecs_apply ![m ((c : Thread nD τ).loc main_arg4), m ((c : Thread nD τ).loc main_arg6), m ((c : Thread nD τ).loc main_arg8), m ((c : Thread nD τ).loc main_arg10)]
    concatenates_S512_S512_S512_S512_S2048_d0 (1 : Fin 4) q _ (by show 512 + q.val = 1 * 512 + q.val; omega)

/-- Entry `1024 + q` of the stacked bias row is entry `q` of the output gate's bias. -/
theorem V_ball_2 (c : Dev nD) (q : Fin 512) :
    V m c main_v3 (ix2 (0 : Fin 1) (⟨1024 + q.val, by have := q.isLt; omega⟩ : Fin 2048)) = m ((c : Thread nD τ).loc main_arg8) (ix1 q) := by
  rw [V_ball_eq, Cert.LibStack4.row_of_vec]
  exact Cert.LibStack4.stackVecs_apply ![m ((c : Thread nD τ).loc main_arg4), m ((c : Thread nD τ).loc main_arg6), m ((c : Thread nD τ).loc main_arg8), m ((c : Thread nD τ).loc main_arg10)]
    concatenates_S512_S512_S512_S512_S2048_d0 (2 : Fin 4) q _ (by show 1024 + q.val = 2 * 512 + q.val; omega)

/-- Entry `1536 + q` of the stacked bias row is entry `q` of the candidate gate's bias. -/
theorem V_ball_3 (c : Dev nD) (q : Fin 512) :
    V m c main_v3 (ix2 (0 : Fin 1) (⟨1536 + q.val, by have := q.isLt; omega⟩ : Fin 2048)) = m ((c : Thread nD τ).loc main_arg10) (ix1 q) := by
  rw [V_ball_eq, Cert.LibStack4.row_of_vec]
  exact Cert.LibStack4.stackVecs_apply ![m ((c : Thread nD τ).loc main_arg4), m ((c : Thread nD τ).loc main_arg6), m ((c : Thread nD τ).loc main_arg8), m ((c : Thread nD τ).loc main_arg10)]
    concatenates_S512_S512_S512_S512_S2048_d0 (3 : Fin 4) q _ (by show 1536 + q.val = 3 * 512 + q.val; omega)

end Cert.KernelIdeal.Hand

end
-- ==== Proof.LstmSpec.lean ====
/-
  The LSTM cell on the extended reals, entry by entry.

  A row of the batch carries an input row `x p` and a hidden row `h p`, each of width 512, and a cell row `c p`.
  The two are joined, hidden first, into one row of width 1024 (`joined`).  Each of the four gates has a weight
  matrix of 512 rows of width 1024 and a bias of width 512; its pre-activation at `(p, q)` is the inner product of
  the joined row `p` with weight row `q`, plus the bias at `q` (`gate`).  With `f`, `i`, `o`, `g` the
  pre-activations of the forget, input, output and candidate gates,

      c' = c · σ f + σ i · tanh g          h' = σ o · tanh c'

  where `σ z = 1 / (1 + e^(-z))`.  The same pre-activations can be read off ONE stacked weight matrix of 2048 rows
  and one stacked bias row of width 2048 (`wideGate`): gate number `a` of the four occupies rows
  `512·a … 512·a + 511`.  Nothing here needs a finite argument: every identity below is between sums and products
  with the same terms in the same order.
-/
import Idealize.ShloMosaic.PureOps.Ideal
import Idealize.ShloMosaic.Lib.ValueIdx

noncomputable section

namespace Cert.Lstm

open Idealize.ShloMosaic Idealize.ShloMosaic.ValueIdx

/-- `n` rows of width 512. -/
abbrev Rows (n : Nat) : Type := (⟨2, ![n, 512]⟩ : Shape).Idx → EReal
/-- One gate's weights: 512 rows of width 1024. -/
abbrev Weight : Type := (⟨2, ![512, 1024]⟩ : Shape).Idx → EReal
/-- One gate's bias. -/
abbrev Bias : Type := (⟨1, ![512]⟩ : Shape).Idx → EReal
/-- The four gates' weights stacked: 2048 rows of width 1024. -/
abbrev WideWeight : Type := (⟨2, ![2048, 1024]⟩ : Shape).Idx → EReal
/-- The four gates' biases laid end to end, as one row. -/
abbrev WideBias : Type := (⟨2, ![1, 2048]⟩ : Shape).Idx → EReal

/-- Entry `k` of the joined row `p`: the hidden row on columns 0 … 511, the input row on columns 512 … 1023. -/
def joined {n : Nat} (x h : Rows n) (p : Fin n) (k : Fin 1024) : EReal :=
  if hk : k.val < 512 then h (ix2 p ⟨k.val, hk⟩) else x (ix2 p ⟨k.val - 512, by have := k.isLt; omega⟩)

/-- A gate's pre-activation at `(p, q)`. -/
def gate {n : Nat} (x h : Rows n) (W : Weight) (b : Bias) (p : Fin n) (q : Fin 512) : EReal :=
  (∑ k : Fin 1024, joined x h p k * W (ix2 q k)) + b (ix1 q)

/-- The pre-activation read off the stacked weights and bias, at `(p, j)`, `j` a row of the stack. -/
def wideGate {n : Nat} (x h : Rows n) (W : WideWeight) (b : WideBias) (p : Fin n) (j : Fin 2048) : EReal :=
  (∑ k : Fin 1024, joined x h p k * W (ix2 j k)) + b (ix2 (0 : Fin 1) j)

/-- The new cell value from the old one and the forget, input and candidate pre-activations. -/
def cellOf (c f i g : EReal) : EReal := c * Ideal.logistic f + Ideal.logistic i * Ideal.tanh g

/-- The new hidden value from the old cell value and the four pre-activations. -/
def hiddenOf (c f i o g : EReal) : EReal := Ideal.logistic o * Ideal.tanh (cellOf c f i g)

/-- The new cell array. -/
def cell (x h c : Rows 32768) (Wf : Weight) (bf : Bias) (Wi : Weight) (bi : Bias) (Wg : Weight) (bg : Bias) : Rows 32768 :=
  fun j => cellOf (c j) (gate x h Wf bf (j 0) (j 1)) (gate x h Wi bi (j 0) (j 1)) (gate x h Wg bg (j 0) (j 1))

/-- The new hidden array. -/
def hidden (x h c : Rows 32768) (Wf : Weight) (bf : Bias) (Wi : Weight) (bi : Bias) (Wo : Weight) (bo : Bias)
    (Wg : Weight) (bg : Bias) : Rows 32768 :=
  fun j => hiddenOf (c j) (gate x h Wf bf (j 0) (j 1)) (gate x h Wi bi (j 0) (j 1)) (gate x h Wo bo (j 0) (j 1))
    (gate x h Wg bg (j 0) (j 1))

/-- The pattern of `1.0` denotes `1`. -/
theorem ofBits_one : Ideal.ofBits .f32 0x3F800000#32 = 1 := by
  simp [Ideal.ofBits, Ideal.ieee, -EReal.coe_mul]; norm_num

/-- The sigmoid spelt as a quotient with the literal `1.0` is the sigmoid. -/
theorem logistic_spelt (z : EReal) :
    Ideal.div (Ideal.ofBits .f32 0x3F800000#32) (Ideal.ofBits .f32 0x3F800000#32 + Ideal.exp (-z)) = Ideal.logistic z := by
  rw [ofBits_one]; rfl

/-- The joined row depends only on the two rows it joins. -/
theorem joined_congr {n n' : Nat} (x h : Rows n) (x' h' : Rows n') (p : Fin n) (p' : Fin n')
    (hx : ∀ k : Fin 512, x (ix2 p k) = x' (ix2 p' k)) (hh : ∀ k : Fin 512, h (ix2 p k) = h' (ix2 p' k)) (k : Fin 1024) :
    joined x h p k = joined x' h' p' k := by
  unfold joined
  split
  · exact hh _
  · exact hx _

/-- A pre-activation depends only on the two rows joined. -/
theorem wideGate_congr {n n' : Nat} (x h : Rows n) (x' h' : Rows n') (W : WideWeight) (b : WideBias) (p : Fin n) (p' : Fin n')
    (hx : ∀ k : Fin 512, x (ix2 p k) = x' (ix2 p' k)) (hh : ∀ k : Fin 512, h (ix2 p k) = h' (ix2 p' k)) (j : Fin 2048) :
    wideGate x h W b p j = wideGate x' h' W b p' j := by
  unfold wideGate
  rw [Finset.sum_congr rfl fun k _ => by rw [joined_congr x h x' h' p p' hx hh k]]

/-- A row of the stack that holds a gate's weight row, and the stack's bias there the gate's: the stacked reading is
    the gate's pre-activation. -/
theorem wideGate_eq_gate {n : Nat} (x h : Rows n) (Wall : WideWeight) (ball : WideBias) (W : Weight) (b : Bias)
    (p : Fin n) (j : Fin 2048) (q : Fin 512)
    (hW : ∀ k : Fin 1024, Wall (ix2 j k) = W (ix2 q k)) (hb : ball (ix2 (0 : Fin 1) j) = b (ix1 q)) :
    wideGate x h Wall ball p j = gate x h W b p q := by
  unfold wideGate gate
  rw [hb, Finset.sum_congr rfl fun k _ => by rw [hW k]]

end Cert.Lstm

end
-- ==== Proof.Payload.lean ====
/-
  The cell's arithmetic, read at an entry.

  The body joins the hidden block and the input block of 512 rows along the columns (hidden first), multiplies each
  joined row with every row of the stacked weights (both contracted along their width 1024), adds the stacked bias row
  to every row, and cuts the 2048 columns of the result into the four gates' 512 columns each: columns 0 … 511 the
  forget gate, 512 … 1023 the input gate, 1024 … 1535 the output gate, 1536 … 2047 the candidate.  At an entry this is
  the stacked pre-activation of the specification, and the new cell and hidden values are the specification's two
  formulas of it.
-/
import proofs.«156865_j317827580479_2_alg».proof.Proof.Gen.KernelIdeal.Skeleton
import proofs.«156865_j317827580479_2_alg».proof.Proof.LstmSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- Two blocks of 512 columns joined along the columns, the first on columns 0 … 511: at `(r, k)` the joined row of
    the specification, whose first half is the hidden row. -/
theorem joined_apply (x h : FVec Ideal S512x512 .bf16) (r : Fin 512) (k : Fin 1024) :
    concatenate S512x1024 1 [⟨S512x512, h⟩, ⟨S512x512, x⟩] concatenates_S512x512_S512x512_S512x1024_d1 (ix2 r k)
      = Cert.Lstm.joined x h r k := by
  unfold Cert.Lstm.joined
  split
  · next hk =>
    exact concatenate_pair_apply_left (1 : Fin S512x1024.rank) h x concatenates_S512x512_S512x512_S512x1024_d1
      (ix2 r k) rfl (ix2 r ⟨k.val, hk⟩) (fun b => by
        match b with
        | ⟨0, _⟩ => rfl
        | ⟨1, _⟩ => rfl)
  · next hk =>
    have hk' : 512 ≤ k.val := Nat.le_of_not_lt hk
    exact concatenate_pair_apply_right (1 : Fin S512x1024.rank) h x concatenates_S512x512_S512x512_S512x1024_d1
      (ix2 r k) rfl rfl (ix2 r ⟨k.val - 512, by have := k.isLt; omega⟩) (fun b hb => by
        match b with
        | ⟨0, _⟩ => rfl
        | ⟨1, _⟩ => exact absurd rfl hb)
      (by show k.val - 512 + 512 = k.val; omega)

/-- The left operand's row of the product at `(r, j)` is `r`. -/
theorem lhs_row (i : S512x2048.Idx) (q : dot_S512x1024_S2048x1024_S512x2048_1_1_0_0_n_n.contr.Idx) :
    (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide),
    dif_pos (show (0 : Fin S512x1024.rank) ∈ dot_S512x1024_S2048x1024_S512x2048_1_1_0_0_n_n.lhsNonContracting by decide)]
  rfl

/-- The right operand's row of the product at `(r, j)` is `j`: the weights are contracted along their width, so a
    column of the product is a row of the weights. -/
theorem rhs_row (i : S512x2048.Idx) (q : dot_S512x1024_S2048x1024_S512x2048_1_1_0_0_n_n.contr.Idx) :
    (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide),
    dif_pos (show (0 : Fin S2048x1024.rank) ∈ dot_S512x1024_S2048x1024_S512x2048_1_1_0_0_n_n.rhsNonContracting by decide)]
  rfl

/-- The product into a zero accumulator at `(r, j)`: the inner product of row `r` of the left operand with row `j`
    of the right. -/
theorem matmul_rows_apply (A : FVec Ideal S512x1024 .bf16) (W : FVec Ideal S2048x1024 .bf16) (r : Fin 512) (j : Fin 2048) :
    matmul dot_S512x1024_S2048x1024_S512x2048_1_1_0_0_n_n none A W (constant (F := Ideal) S512x2048 .f32 0x00000000#32) (ix2 r j)
      = ∑ k : Fin 1024, A (ix2 r k) * W (ix2 j k) := by
  refine (Ideal.matmul_constant_zero_apply dot_S512x1024_S2048x1024_S512x2048_1_1_0_0_n_n none A W (ix2 r j)).trans ?_
  rw [← Equiv.sum_comp (contrEquiv1 dot_S512x1024_S2048x1024_S512x2048_1_1_0_0_n_n 1024 rfl rfl).symm]
  refine Finset.sum_congr rfl fun k _ => ?_
  have hk := contrEquiv1_symm_val dot_S512x1024_S2048x1024_S512x2048_1_1_0_0_n_n 1024 rfl rfl k
  have el : dot_S512x1024_S2048x1024_S512x2048_1_1_0_0_n_n.lhsIdx (ix2 r j)
      ((contrEquiv1 dot_S512x1024_S2048x1024_S512x2048_1_1_0_0_n_n 1024 rfl rfl).symm k) = ix2 r k :=
    funext fun a => Fin.ext (by
      match a with
      | ⟨0, _⟩ => exact lhs_row _ _
      | ⟨1, _⟩ => exact (dot_S512x1024_S2048x1024_S512x2048_1_1_0_0_n_n.lhsIdx_val_of_single rfl _ _).trans hk)
  have er : dot_S512x1024_S2048x1024_S512x2048_1_1_0_0_n_n.rhsIdx (ix2 r j)
      ((contrEquiv1 dot_S512x1024_S2048x1024_S512x2048_1_1_0_0_n_n 1024 rfl rfl).symm k) = ix2 j k :=
    funext fun a => Fin.ext (by
      match a with
      | ⟨0, _⟩ => exact rhs_row _ _
      | ⟨1, _⟩ => exact (dot_S512x1024_S2048x1024_S512x2048_1_1_0_0_n_n.rhsIdx_val_of_single rfl _ _).trans hk)
  rw [el, er]

/-- The stacked pre-activation: the body's value before the gates are cut out, at `(r, j)`. -/
theorem pay1_apply (v0 v2 : Vec Ideal S512x512 .f32) (v6 : Vec Ideal S2048x1024 .bf16) (v9 : Vec Ideal S1x2048 .f32)
    (r : Fin 512) (j : Fin 2048) :
    k0_pay1 (F := Ideal) v0 v2 v6 v9 (ix2 r j) = Cert.Lstm.wideGate v0 v2 v6 v9 r j := by
  unfold k0_pay1 Cert.Lstm.wideGate
  rw [addf_apply, shapeCast_self, shapeCast_self, matmul_rows_apply, broadcastTo_1b_ab_apply]
  refine congrArg (· + v9 (ix2 (0 : Fin 1) j)) (Finset.sum_congr rfl fun k _ => ?_)
  rw [joined_apply]
  rfl

/-- A gate's 512 columns cut out of the stacked pre-activation at offset `o`: at `(r, q)` the stacked
    pre-activation at row `o + q` of the stack. -/
theorem gate_slice (v0 v2 : Vec Ideal S512x512 .f32) (v6 : Vec Ideal S2048x1024 .bf16) (v9 : Vec Ideal S1x2048 .f32)
    (o : Nat) (h : S512x2048.Slices ![0, o] S512x512) (r q : Fin 512) (ho : o + q.val < 2048) :
    extractStridedSlice S512x512 ![0, o] (k0_pay1 (F := Ideal) v0 v2 v6 v9) h (ix2 r q)
      = Cert.Lstm.wideGate v0 v2 v6 v9 r ⟨o + q.val, ho⟩ :=
  (slice2_axis1_apply o (k0_pay1 (F := Ideal) v0 v2 v6 v9) h r q ⟨o + q.val, ho⟩ rfl).trans
    (pay1_apply v0 v2 v6 v9 r ⟨o + q.val, ho⟩)

/-- The sigmoid of a block, at an entry. -/
theorem logistic_apply {s : Shape} {φ : FTy} (a : FVec Ideal s φ) (i : s.Idx) : logistic a i = Ideal.logistic (a i) := rfl

/-- The hyperbolic tangent of a block, at an entry. -/
theorem tanh_apply {s : Shape} {φ : FTy} (a : FVec Ideal s φ) (i : s.Idx) : tanh a i = Ideal.tanh (a i) := rfl

/-- The new cell value at `(r, q)`. -/
theorem pay2_apply (v0 v2 v4 : Vec Ideal S512x512 .f32) (v6 : Vec Ideal S2048x1024 .bf16) (v9 : Vec Ideal S1x2048 .f32)
    (r q : Fin 512) :
    k0_pay2 (F := Ideal) v0 v2 v4 v6 v9 (ix2 r q)
      = Cert.Lstm.cellOf (v4 (ix2 r q)) (Cert.Lstm.wideGate v0 v2 v6 v9 r ⟨q.val, by omega⟩)
          (Cert.Lstm.wideGate v0 v2 v6 v9 r ⟨512 + q.val, by omega⟩)
          (Cert.Lstm.wideGate v0 v2 v6 v9 r ⟨1536 + q.val, by omega⟩) := by
  unfold k0_pay2 Cert.Lstm.cellOf
  rw [addf_apply, mulf_apply, mulf_apply, logistic_apply, logistic_apply, tanh_apply,
    gate_slice v0 v2 v6 v9 0 _ r q (by omega), gate_slice v0 v2 v6 v9 512 _ r q (by omega),
    gate_slice v0 v2 v6 v9 1536 _ r q (by omega)]
  simp only [Nat.zero_add]

/-- The new hidden value at `(r, q)`. -/
theorem pay3_apply (v0 v2 v4 : Vec Ideal S512x512 .f32) (v6 : Vec Ideal S2048x1024 .bf16) (v9 : Vec Ideal S1x2048 .f32)
    (r q : Fin 512) :
    k0_pay3 (F := Ideal) v0 v2 v4 v6 v9 (ix2 r q)
      = Cert.Lstm.hiddenOf (v4 (ix2 r q)) (Cert.Lstm.wideGate v0 v2 v6 v9 r ⟨q.val, by omega⟩)
          (Cert.Lstm.wideGate v0 v2 v6 v9 r ⟨512 + q.val, by omega⟩)
          (Cert.Lstm.wideGate v0 v2 v6 v9 r ⟨1024 + q.val, by omega⟩)
          (Cert.Lstm.wideGate v0 v2 v6 v9 r ⟨1536 + q.val, by omega⟩) := by
  unfold k0_pay3 Cert.Lstm.hiddenOf
  rw [mulf_apply, logistic_apply, tanh_apply, gate_slice v0 v2 v6 v9 1024 _ r q (by omega), pay2_apply]

end Cert.KernelIdeal.Body

end
-- ==== Proof.KernelValue.lean ====
/-
  The two result arrays after the launch, as functions of the argument arrays.

  Point `t` of the grid works on rows `512·t … 512·t + 511` of the batch: entry `(r, k)` of an operand's block there is
  entry `(512·t + r, k)` of its array, while the stacked weights and the stacked bias row are staged whole.  The body's two
  stored values at `(r, q)` are the new hidden and cell values computed from row `r` of the blocks and rows
  `q`, `512 + q`, `1024 + q`, `1536 + q` of the stack, which are row `q` of the forget, input, output and candidate
  gates' weights; so what point `t` writes back is block `t` of the LSTM cell's two arrays.  The 64 blocks tile the
  32768 rows (row `p` lies in block `p / 512`), so each result array ends at that function everywhere.
-/
import proofs.«156865_j317827580479_2_alg».proof.Proof.FrameIdeal
import proofs.«156865_j317827580479_2_alg».proof.Proof.HostPrefix
import proofs.«156865_j317827580479_2_alg».proof.Proof.LstmSpec
import proofs.«156865_j317827580479_2_alg».proof.Proof.Payload
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-! ## The body's stored values are its two computed values -/

theorem hz : (![0, 0] : Fin 2 → Nat) = fun _ => 0 := funext fun a => by fin_cases a <;> rfl

/-- The body loads each operand whole and stores each result whole. -/
theorem out0_5_eq (x0 x1 x2 : Vec Ideal S512x512 .f32) (x3 : Vec Ideal S2048x1024 .bf16) (x4 : Vec Ideal S1x2048 .f32) :
    out0_5 x0 x1 x2 x3 x4 = k0_pay3 x0 x1 x2 x3 x4 := by
  unfold out0_5
  rw [View.canon_unit_zero hz]
  simp only [View.ld_unit_zero (S := S512x512) hz, View.ld_unit_zero (S := S2048x1024) hz, View.ld_unit_zero (S := S1x2048) hz]

theorem out0_6_eq (x0 x1 x2 : Vec Ideal S512x512 .f32) (x3 : Vec Ideal S2048x1024 .bf16) (x4 : Vec Ideal S1x2048 .f32) :
    out0_6 x0 x1 x2 x3 x4 = k0_pay2 x0 x1 x2 x3 x4 := by
  unfold out0_6
  rw [View.canon_unit_zero hz]
  simp only [View.ld_unit_zero (S := S512x512) hz, View.ld_unit_zero (S := S2048x1024) hz, View.ld_unit_zero (S := S1x2048) hz]

/-! ## Where each operand's block sits -/

/-- The printed index maps over the grid: the five batch windows are at block row `t`, column block 0; the two staged
    constants at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Entry `(r, k)` of operand 0's block at point `t` is entry `(512·t + r, k)` of its array. -/
theorem iblk0_apply (c : Dev nD) (t : Fin cfg0.N) (r k : Fin 512) (p : Fin 32768) (hp : p.val = 512 * t.val + r.val) :
    iblk m c 0 t (ix2 r k) = m ((c : Thread nD τ).loc main_arg0) (ix2 p k) := by
  rw [← V_main_arg0 m c]
  show V m c main_arg0 (((cfg0.win 0).blk t).view.emb (ix2 r k)) = V m c main_arg0 (ix2 p k)
  refine congrArg _ (funext fun a => Fin.ext ?_)
  have e := idx_facts t
  match a with
  | ⟨0, _⟩ => show win0_0.index t (0 : Fin 2) * 512 + 1 * r.val = p.val; omega
  | ⟨1, _⟩ => show win0_0.index t (1 : Fin 2) * 512 + 1 * k.val = k.val; omega

/-- Entry `(r, k)` of operand 1's block at point `t` is entry `(512·t + r, k)` of its array. -/
theorem iblk1_apply (c : Dev nD) (t : Fin cfg0.N) (r k : Fin 512) (p : Fin 32768) (hp : p.val = 512 * t.val + r.val) :
    iblk m c 1 t (ix2 r k) = m ((c : Thread nD τ).loc main_arg1) (ix2 p k) := by
  rw [← V_main_arg1 m c]
  show V m c main_arg1 (((cfg0.win 1).blk t).view.emb (ix2 r k)) = V m c main_arg1 (ix2 p k)
  refine congrArg _ (funext fun a => Fin.ext ?_)
  have e := idx_facts t
  match a with
  | ⟨0, _⟩ => show win0_1.index t (0 : Fin 2) * 512 + 1 * r.val = p.val; omega
  | ⟨1, _⟩ => show win0_1.index t (1 : Fin 2) * 512 + 1 * k.val = k.val; omega

/-- Entry `(r, k)` of operand 2's block at point `t` is entry `(512·t + r, k)` of its array. -/
theorem iblk2_apply (c : Dev nD) (t : Fin cfg0.N) (r k : Fin 512) (p : Fin 32768) (hp : p.val = 512 * t.val + r.val) :
    iblk m c 2 t (ix2 r k) = m ((c : Thread nD τ).loc main_arg2) (ix2 p k) := by
  rw [← V_main_arg2 m c]
  show V m c main_arg2 (((cfg0.win 2).blk t).view.emb (ix2 r k)) = V m c main_arg2 (ix2 p k)
  refine congrArg _ (funext fun a => Fin.ext ?_)
  have e := idx_facts t
  match a with
  | ⟨0, _⟩ => show win0_2.index t (0 : Fin 2) * 512 + 1 * r.val = p.val; omega
  | ⟨1, _⟩ => show win0_2.index t (1 : Fin 2) * 512 + 1 * k.val = k.val; omega

/-- The stacked weights are staged whole. -/
theorem iblk3_apply (c : Dev nD) (t : Fin cfg0.N) (j : Fin 2048) (k : Fin 1024) :
    iblk m c 3 t (ix2 j k) = V m c main_v1 (ix2 j k) := by
  show V m c main_v1 (((cfg0.win 3).blk t).view.emb (ix2 j k)) = V m c main_v1 (ix2 j k)
  refine congrArg _ (funext fun a => Fin.ext ?_)
  have e := idx_facts t
  match a with
  | ⟨0, _⟩ => show win0_3.index t (0 : Fin 2) * 2048 + 1 * j.val = j.val; omega
  | ⟨1, _⟩ => show win0_3.index t (1 : Fin 2) * 1024 + 1 * k.val = k.val; omega

/-- The stacked bias row is staged whole. -/
theorem iblk4_apply (c : Dev nD) (t : Fin cfg0.N) (j : Fin 2048) :
    iblk m c 4 t (ix2 (0 : Fin 1) j) = V m c main_v3 (ix2 (0 : Fin 1) j) := by
  show V m c main_v3 (((cfg0.win 4).blk t).view.emb (ix2 (0 : Fin 1) j)) = V m c main_v3 (ix2 (0 : Fin 1) j)
  refine congrArg _ (funext fun a => Fin.ext ?_)
  have e := idx_facts t
  match a with
  | ⟨0, _⟩ => show win0_4.index t (0 : Fin 2) * 1 + 1 * 0 = 0; omega
  | ⟨1, _⟩ => show win0_4.index t (1 : Fin 2) * 2048 + 1 * j.val = j.val; omega

/-! ## A gate read off the staged blocks is the gate of the arrays -/

/-- The forget gate's pre-activation, read off the blocks at point `t`, row `r`, is the one of the arrays at row `512·t + r`. -/
theorem gate_0 (c : Dev nD) (t : Fin cfg0.N) (r q : Fin 512) (p : Fin 32768) (hp : p.val = 512 * t.val + r.val) :
    Cert.Lstm.wideGate (iblk m c 0 t) (iblk m c 1 t) (iblk m c 3 t) (iblk m c 4 t) r ⟨q.val, by have := q.isLt; omega⟩
      = Cert.Lstm.gate (m ((c : Thread nD τ).loc main_arg0)) (m ((c : Thread nD τ).loc main_arg1)) (m ((c : Thread nD τ).loc main_arg3)) (m ((c : Thread nD τ).loc main_arg4)) p q :=
  (Cert.Lstm.wideGate_congr (iblk m c 0 t) (iblk m c 1 t) (m ((c : Thread nD τ).loc main_arg0)) (m ((c : Thread nD τ).loc main_arg1)) (iblk m c 3 t) (iblk m c 4 t) r p
      (fun k => iblk0_apply m c t r k p hp) (fun k => iblk1_apply m c t r k p hp) _).trans
    (Cert.Lstm.wideGate_eq_gate _ _ (iblk m c 3 t) (iblk m c 4 t) (m ((c : Thread nD τ).loc main_arg3)) (m ((c : Thread nD τ).loc main_arg4)) p _ q
      (fun k => (iblk3_apply m c t _ k).trans (V_wall_0 m c q k)) ((iblk4_apply m c t _).trans (V_ball_0 m c q)))

/-- The input gate's pre-activation, read off the blocks at point `t`, row `r`, is the one of the arrays at row `512·t + r`. -/
theorem gate_1 (c : Dev nD) (t : Fin cfg0.N) (r q : Fin 512) (p : Fin 32768) (hp : p.val = 512 * t.val + r.val) :
    Cert.Lstm.wideGate (iblk m c 0 t) (iblk m c 1 t) (iblk m c 3 t) (iblk m c 4 t) r ⟨512 + q.val, by have := q.isLt; omega⟩
      = Cert.Lstm.gate (m ((c : Thread nD τ).loc main_arg0)) (m ((c : Thread nD τ).loc main_arg1)) (m ((c : Thread nD τ).loc main_arg5)) (m ((c : Thread nD τ).loc main_arg6)) p q :=
  (Cert.Lstm.wideGate_congr (iblk m c 0 t) (iblk m c 1 t) (m ((c : Thread nD τ).loc main_arg0)) (m ((c : Thread nD τ).loc main_arg1)) (iblk m c 3 t) (iblk m c 4 t) r p
      (fun k => iblk0_apply m c t r k p hp) (fun k => iblk1_apply m c t r k p hp) _).trans
    (Cert.Lstm.wideGate_eq_gate _ _ (iblk m c 3 t) (iblk m c 4 t) (m ((c : Thread nD τ).loc main_arg5)) (m ((c : Thread nD τ).loc main_arg6)) p _ q
      (fun k => (iblk3_apply m c t _ k).trans (V_wall_1 m c q k)) ((iblk4_apply m c t _).trans (V_ball_1 m c q)))

/-- The output gate's pre-activation, read off the blocks at point `t`, row `r`, is the one of the arrays at row `512·t + r`. -/
theorem gate_2 (c : Dev nD) (t : Fin cfg0.N) (r q : Fin 512) (p : Fin 32768) (hp : p.val = 512 * t.val + r.val) :
    Cert.Lstm.wideGate (iblk m c 0 t) (iblk m c 1 t) (iblk m c 3 t) (iblk m c 4 t) r ⟨1024 + q.val, by have := q.isLt; omega⟩
      = Cert.Lstm.gate (m ((c : Thread nD τ).loc main_arg0)) (m ((c : Thread nD τ).loc main_arg1)) (m ((c : Thread nD τ).loc main_arg7)) (m ((c : Thread nD τ).loc main_arg8)) p q :=
  (Cert.Lstm.wideGate_congr (iblk m c 0 t) (iblk m c 1 t) (m ((c : Thread nD τ).loc main_arg0)) (m ((c : Thread nD τ).loc main_arg1)) (iblk m c 3 t) (iblk m c 4 t) r p
      (fun k => iblk0_apply m c t r k p hp) (fun k => iblk1_apply m c t r k p hp) _).trans
    (Cert.Lstm.wideGate_eq_gate _ _ (iblk m c 3 t) (iblk m c 4 t) (m ((c : Thread nD τ).loc main_arg7)) (m ((c : Thread nD τ).loc main_arg8)) p _ q
      (fun k => (iblk3_apply m c t _ k).trans (V_wall_2 m c q k)) ((iblk4_apply m c t _).trans (V_ball_2 m c q)))

/-- The candidate gate's pre-activation, read off the blocks at point `t`, row `r`, is the one of the arrays at row `512·t + r`. -/
theorem gate_3 (c : Dev nD) (t : Fin cfg0.N) (r q : Fin 512) (p : Fin 32768) (hp : p.val = 512 * t.val + r.val) :
    Cert.Lstm.wideGate (iblk m c 0 t) (iblk m c 1 t) (iblk m c 3 t) (iblk m c 4 t) r ⟨1536 + q.val, by have := q.isLt; omega⟩
      = Cert.Lstm.gate (m ((c : Thread nD τ).loc main_arg0)) (m ((c : Thread nD τ).loc main_arg1)) (m ((c : Thread nD τ).loc main_arg9)) (m ((c : Thread nD τ).loc main_arg10)) p q :=
  (Cert.Lstm.wideGate_congr (iblk m c 0 t) (iblk m c 1 t) (m ((c : Thread nD τ).loc main_arg0)) (m ((c : Thread nD τ).loc main_arg1)) (iblk m c 3 t) (iblk m c 4 t) r p
      (fun k => iblk0_apply m c t r k p hp) (fun k => iblk1_apply m c t r k p hp) _).trans
    (Cert.Lstm.wideGate_eq_gate _ _ (iblk m c 3 t) (iblk m c 4 t) (m ((c : Thread nD τ).loc main_arg9)) (m ((c : Thread nD τ).loc main_arg10)) p _ q
      (fun k => (iblk3_apply m c t _ k).trans (V_wall_3 m c q k)) ((iblk4_apply m c t _).trans (V_ball_3 m c q)))

/-! ## What each point writes back -/

/-- The new hidden array of the argument arrays. -/
abbrev hiddenOut (c : Dev nD) : S32768x512.Idx → EReal := Cert.Lstm.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- The new cell array of the argument arrays. -/
abbrev cellOut (c : Dev nD) : S32768x512.Idx → EReal := Cert.Lstm.cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))

/-- An element of block `t` of a result array sits at row `512·t + r`. -/
theorem emb5 (t : Fin cfg0.N) (r q : Fin 512) (p : Fin 32768) (hp : p.val = 512 * t.val + r.val) :
    ((cfg0.win 5).blk t).view.emb (ix2 r q) = ix2 p q := by
  funext a; apply Fin.ext
  have e := idx_facts t
  match a with
  | ⟨0, _⟩ => show win0_5.index t (0 : Fin 2) * 512 + 1 * r.val = p.val; omega
  | ⟨1, _⟩ => show win0_5.index t (1 : Fin 2) * 512 + 1 * q.val = q.val; omega

theorem emb6 (t : Fin cfg0.N) (r q : Fin 512) (p : Fin 32768) (hp : p.val = 512 * t.val + r.val) :
    ((cfg0.win 6).blk t).view.emb (ix2 r q) = ix2 p q := by
  funext a; apply Fin.ext
  have e := idx_facts t
  match a with
  | ⟨0, _⟩ => show win0_6.index t (0 : Fin 2) * 512 + 1 * r.val = p.val; omega
  | ⟨1, _⟩ => show win0_6.index t (1 : Fin 2) * 512 + 1 * q.val = q.val; omega

/-- A point of the grid is one of 64. -/
theorem point_lt (t : Fin cfg0.N) : t.val < 64 := Nat.lt_of_lt_of_eq t.isLt N_0

/-- Point `t` writes back block `t` of the new hidden array. -/
theorem flushed5_eq (c : Dev nD) (t : Fin cfg0.N) :
    (dats m 0 c).flushed 5 t = ((cfg0.win 5).blk t).view.read (Elt Ideal) (hiddenOut m c) := by
  show (cfg0.win 5).cut (grid0.coords t) ((dats m 0 c).after 5 t) = _
  rw [after0_5, out0_5_eq]
  funext y
  obtain ⟨r, q, rfl⟩ : ∃ (r q : Fin 512), y = ix2 r q := ⟨y 0, y 1, eq_ix2 y⟩
  have ht := point_lt t
  have hp : (⟨512 * t.val + r.val, by have := r.isLt; omega⟩ : Fin 32768).val = 512 * t.val + r.val := rfl
  show k0_pay3 (iblk m c 0 t) (iblk m c 1 t) (iblk m c 2 t) (iblk m c 3 t) (iblk m c 4 t) (ix2 r q)
    = hiddenOut m c (((cfg0.win 5).blk t).view.emb (ix2 r q))
  rw [emb5 t r q _ hp, Cert.KernelIdeal.Body.pay3_apply, iblk2_apply m c t r q _ hp, gate_0 m c t r q _ hp, gate_1 m c t r q _ hp, gate_2 m c t r q _ hp,
    gate_3 m c t r q _ hp]
  rfl

/-- Point `t` writes back block `t` of the new cell array. -/
theorem flushed6_eq (c : Dev nD) (t : Fin cfg0.N) :
    (dats m 0 c).flushed 6 t = ((cfg0.win 6).blk t).view.read (Elt Ideal) (cellOut m c) := by
  show (cfg0.win 6).cut (grid0.coords t) ((dats m 0 c).after 6 t) = _
  rw [after0_6, out0_6_eq]
  funext y
  obtain ⟨r, q, rfl⟩ : ∃ (r q : Fin 512), y = ix2 r q := ⟨y 0, y 1, eq_ix2 y⟩
  have ht := point_lt t
  have hp : (⟨512 * t.val + r.val, by have := r.isLt; omega⟩ : Fin 32768).val = 512 * t.val + r.val := rfl
  show k0_pay2 (iblk m c 0 t) (iblk m c 1 t) (iblk m c 2 t) (iblk m c 3 t) (iblk m c 4 t) (ix2 r q)
    = cellOut m c (((cfg0.win 6).blk t).view.emb (ix2 r q))
  rw [emb6 t r q _ hp, Cert.KernelIdeal.Body.pay2_apply, iblk2_apply m c t r q _ hp, gate_0 m c t r q _ hp, gate_1 m c t r q _ hp, gate_3 m c t r q _ hp]
  rfl

/-! ## The blocks tile the rows -/

theorem mem_blk5 (t : Fin cfg0.N) (i : S32768x512.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v4_0).slice (win0_5.rect t)).set ↔ _
  rw [View.set_slice_whole, Rect.mem_set_unit]
  exact Iff.rfl

theorem mem_blk6 (t : Fin cfg0.N) (i : S32768x512.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v4_1).slice (win0_6.rect t)).set ↔ _
  rw [View.set_slice_whole, Rect.mem_set_unit]
  exact Iff.rfl

/-- Row `p` lies in the block of point `p / 512`. -/
theorem cover5 (i : S32768x512.Idx) : ∃ t : Fin cfg0.N, (cfg0.win 5).flush t = true ∧ i ∈ ((cfg0.win 5).blk t).view.set := by
  have hi0 : (i 0).val < 32768 := (i 0).isLt
  have hi1 : (i 1).val < 512 := (i 1).isLt
  let t : Fin cfg0.N := ⟨(i 0).val / 512, Nat.lt_of_lt_of_eq (by omega : (i 0).val / 512 < 64) N_0.symm⟩
  have e := idx_facts t
  have tv : t.val = (i 0).val / 512 := rfl
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

theorem cover6 (i : S32768x512.Idx) : ∃ t : Fin cfg0.N, (cfg0.win 6).flush t = true ∧ i ∈ ((cfg0.win 6).blk t).view.set := by
  have hi0 : (i 0).val < 32768 := (i 0).isLt
  have hi1 : (i 1).val < 512 := (i 1).isLt
  let t : Fin cfg0.N := ⟨(i 0).val / 512, Nat.lt_of_lt_of_eq (by omega : (i 0).val / 512 < 64) N_0.symm⟩
  have e := idx_facts t
  have tv : t.val = (i 0).val / 512 := rfl
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 512 ≤ (i 1).val ∧ (i 1).val < win0_6.index t (1 : Fin 2) * 512 + 512; omega

/-! ## The result arrays, and the run -/

/-- The first result array ends at the new hidden array. -/
theorem final5 (c : Dev nD) : (dats m 0 c).arrAt 5 cfg0.N = hiddenOut m c :=
  (dats m 0 c).arrAt_eq_of_cover 5 (hiddenOut m c) (fun t _ => flushed5_eq m c t) cover5

/-- The second result array ends at the new cell array. -/
theorem final6 (c : Dev nD) : (dats m 0 c).arrAt 6 cfg0.N = cellOut m c :=
  (dats m 0 c).arrAt_eq_of_cover 6 (cellOut m c) (fun t _ => flushed6_eq m c t) cover6

/-- The program's run with both results named: every weakly fair execution terminates with the two result arrays at the
    LSTM cell's new hidden and cell arrays of the argument arrays, and the arguments unchanged. -/
theorem run_value : θ_run defs (onTc (τ := τ) (main (F := Ideal))) ⟨m, fun _ => 0, ρ⟩ fun r => ∀ c : Dev nD,
      r.2.mem ((c.tc : Thread nD τ).loc main_v4_0) = hiddenOut m c
      ∧ r.2.mem ((c.tc : Thread nD τ).loc main_v4_1) = cellOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 5).trans (final5 m c), ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.Hand

end
-- ==== Proof.RefBridge.lean ====
/-
  The reference computes the LSTM cell of the specification.

  The reference joins the hidden and input rows into one row of width 1024, hidden first, and for each of the four
  gates multiplies the joined rows by the transposed weight matrix, adds the bias along every row, and, for the
  three sigmoid gates, spells the sigmoid as the quotient 1 / (1 + e^(-z)) with the literal 1.  Read entry by entry
  this is the specification's gate, term for term: the inner product runs over the same 1024 columns in the same
  order, so no reordering and no finiteness is needed.
-/
import proofs.«156865_j317827580479_2_alg».proof.Proof.Gen.ReferenceIdeal.Read
import proofs.«156865_j317827580479_2_alg».proof.Proof.LstmSpec

noncomputable section

namespace Cert.ReferenceIdeal.RefValue

open Cert.ReferenceIdeal Cert.ReferenceIdeal.Gen Cert.ReferenceIdeal.Read Idealize.ShloMosaic Idealize.ShloMosaic.ValueIdx

/-- Entry (p, k) of the joined array: the hidden row on the first 512 columns, the input row on the last 512. -/
theorem joined_apply (x0 x1 : (⟨S32768x512, .f32⟩ : BufTy).Contents (Elt Ideal)) (p : Fin 32768) (k : Fin 1024) :
    val_main_v0 (F := Ideal) x0 x1 (ix2 p k) = Cert.Lstm.joined x0 x1 p k := by
  unfold val_main_v0 Cert.Lstm.joined
  split
  · next hk =>
    exact concatenate_pair_apply_left (t := S32768x1024) (s₁ := S32768x512) (s₂ := S32768x512) (1 : Fin 2) x1 x0
      concatenates_S32768x512_S32768x512_S32768x1024_d1 (ix2 p k) rfl (ix2 p ⟨k.val, hk⟩) (fun b => by
        match b with
        | ⟨0, _⟩ => rfl
        | ⟨1, _⟩ => rfl)
  · next hk =>
    exact concatenate_pair_apply_right (t := S32768x1024) (s₁ := S32768x512) (s₂ := S32768x512) (1 : Fin 2) x1 x0
      concatenates_S32768x512_S32768x512_S32768x1024_d1 (ix2 p k) rfl rfl
      (ix2 p ⟨k.val - 512, by have := k.isLt; omega⟩)
      (fun b hb => by
        match b with
        | ⟨0, _⟩ => rfl
        | ⟨1, _⟩ => exact absurd rfl hb)
      (by show k.val - 512 + 512 = k.val; omega)

/-- A gate's pre-activation at (p, q): the inner product of the joined row p with weight row q, plus the bias at q. -/
theorem gate_apply (x0 x1 : (⟨S32768x512, .f32⟩ : BufTy).Contents (Elt Ideal))
    (W : (⟨S512x1024, .f32⟩ : BufTy).Contents (Elt Ideal)) (b : (⟨S512, .f32⟩ : BufTy).Contents (Elt Ideal))
    (p : Fin 32768) (q : Fin 512) :
    val_main_v5 (F := Ideal) x0 x1 W b (ix2 p q) = Cert.Lstm.gate x0 x1 W b p q := by
  rw [val_main_v5_apply, val_main_v2_apply, val_main_v4_apply, val_main_v3_apply, Ideal.addf_def]
  unfold Cert.Lstm.gate
  congr 1
  · refine Finset.sum_congr rfl fun k _ => ?_
    have e1 : lidx_main_v2 (ix2 p q) k = ix2 p k := funext fun a => by
      match a with
      | ⟨0, _⟩ => rfl
      | ⟨1, _⟩ => rfl
    have e2 : idx_main_v1 (ridx_main_v2 (ix2 p q) k) = ix2 q k := funext fun a => by
      match a with
      | ⟨0, _⟩ => rfl
      | ⟨1, _⟩ => rfl
    rw [val_main_v1_apply, e1, e2, joined_apply]
  · congr 1
    funext a
    match a with
    | ⟨0, _⟩ => rfl

/-- The quotient 1 / (1 + e^(-z)) over a gate's pre-activation z is the sigmoid of the specification's gate. -/
theorem sigmoid_apply (x0 x1 : (⟨S32768x512, .f32⟩ : BufTy).Contents (Elt Ideal))
    (W : (⟨S512x1024, .f32⟩ : BufTy).Contents (Elt Ideal)) (b : (⟨S512, .f32⟩ : BufTy).Contents (Elt Ideal))
    (p : Fin 32768) (q : Fin 512) :
    val_main_v11 (F := Ideal) x0 x1 W b (ix2 p q) = Ideal.logistic (Cert.Lstm.gate x0 x1 W b p q) := by
  rw [val_main_v11_apply, val_main_v10_apply, val_main_cst_0_apply, val_main_v9_apply, val_main_v8_apply,
    val_main_cst_apply, val_main_v7_apply, val_main_v6_apply, gate_apply]
  simp only [Ideal.hostDivf_def, Ideal.hostUnary_exp_def, Ideal.hostNegf_def, Ideal.negf_def, Ideal.addf_def,
    Ideal.ofBits_def]
  exact Cert.Lstm.logistic_spelt _

/-! The four gates are one and the same chain of operations applied to different weights and biases: the stages of
    the input, candidate and output gates are, by definition, the forget gate's stages at their own arguments. -/

theorem input_pre_eq (x0 x1 : (⟨S32768x512, .f32⟩ : BufTy).Contents (Elt Ideal))
    (W : (⟨S512x1024, .f32⟩ : BufTy).Contents (Elt Ideal)) (b : (⟨S512, .f32⟩ : BufTy).Contents (Elt Ideal)) :
    val_main_v22 (F := Ideal) x0 x1 W b = val_main_v11 (F := Ideal) x0 x1 W b := rfl

theorem candidate_pre_eq (x0 x1 : (⟨S32768x512, .f32⟩ : BufTy).Contents (Elt Ideal))
    (W : (⟨S512x1024, .f32⟩ : BufTy).Contents (Elt Ideal)) (b : (⟨S512, .f32⟩ : BufTy).Contents (Elt Ideal)) :
    val_main_v27 (F := Ideal) x0 x1 W b = val_main_v5 (F := Ideal) x0 x1 W b := rfl

theorem output_pre_eq (x0 x1 : (⟨S32768x512, .f32⟩ : BufTy).Contents (Elt Ideal))
    (W : (⟨S512x1024, .f32⟩ : BufTy).Contents (Elt Ideal)) (b : (⟨S512, .f32⟩ : BufTy).Contents (Elt Ideal)) :
    val_main_v39 (F := Ideal) x0 x1 W b = val_main_v11 (F := Ideal) x0 x1 W b := rfl

/-- The reference's new cell array is the specification's. -/
theorem cell_eq (x0 x1 x2 : (⟨S32768x512, .f32⟩ : BufTy).Contents (Elt Ideal))
    (x3 : (⟨S512x1024, .f32⟩ : BufTy).Contents (Elt Ideal)) (x4 : (⟨S512, .f32⟩ : BufTy).Contents (Elt Ideal))
    (x5 : (⟨S512x1024, .f32⟩ : BufTy).Contents (Elt Ideal)) (x6 : (⟨S512, .f32⟩ : BufTy).Contents (Elt Ideal))
    (x9 : (⟨S512x1024, .f32⟩ : BufTy).Contents (Elt Ideal)) (x10 : (⟨S512, .f32⟩ : BufTy).Contents (Elt Ideal)) :
    Cert.ReferenceIdeal.Read.val_main_v42 (F := Ideal) x0 x1 x2 x3 x4 x5 x6 x9 x10
      = Cert.Lstm.cell x0 x1 x2 x3 x4 x5 x6 x9 x10 := by
  funext j
  obtain ⟨p, q, rfl⟩ : ∃ (p : Fin 32768) (q : Fin 512), j = ix2 p q := ⟨j 0, j 1, eq_ix2 j⟩
  rw [val_main_v42_apply, val_main_v40_apply, val_main_v41_apply, val_main_v28_apply, input_pre_eq, candidate_pre_eq,
    sigmoid_apply, sigmoid_apply, gate_apply]
  simp only [Ideal.addf_def, Ideal.mulf_def, Ideal.hostUnary_tanh_def]
  rfl

/-- The reference's new hidden array is the specification's. -/
theorem hidden_eq (x0 x1 x2 : (⟨S32768x512, .f32⟩ : BufTy).Contents (Elt Ideal))
    (x3 : (⟨S512x1024, .f32⟩ : BufTy).Contents (Elt Ideal)) (x4 : (⟨S512, .f32⟩ : BufTy).Contents (Elt Ideal))
    (x5 : (⟨S512x1024, .f32⟩ : BufTy).Contents (Elt Ideal)) (x6 : (⟨S512, .f32⟩ : BufTy).Contents (Elt Ideal))
    (x7 : (⟨S512x1024, .f32⟩ : BufTy).Contents (Elt Ideal)) (x8 : (⟨S512, .f32⟩ : BufTy).Contents (Elt Ideal))
    (x9 : (⟨S512x1024, .f32⟩ : BufTy).Contents (Elt Ideal)) (x10 : (⟨S512, .f32⟩ : BufTy).Contents (Elt Ideal)) :
    Cert.ReferenceIdeal.Read.val_main_v44 (F := Ideal) x0 x1 x2 x3 x4 x5 x6 x7 x8 x9 x10
      = Cert.Lstm.hidden x0 x1 x2 x3 x4 x5 x6 x7 x8 x9 x10 := by
  funext j
  obtain ⟨p, q, rfl⟩ : ∃ (p : Fin 32768) (q : Fin 512), j = ix2 p q := ⟨j 0, j 1, eq_ix2 j⟩
  rw [val_main_v44_apply, val_main_v43_apply, output_pre_eq, sigmoid_apply, cell_eq]
  simp only [Ideal.mulf_def, Ideal.hostUnary_tanh_def]
  rfl

end Cert.ReferenceIdeal.RefValue

end
-- ==== Proof.lean ====
/-
  A fused LSTM cell kernel against its plain reference, over the extended reals.

  Both programs take a batch of 32768 rows (input, hidden and cell rows of width 512) and four gates' weights and biases,
  and return the new hidden and cell arrays.  The kernel stacks the four weight matrices and the four biases on the host,
  and on a grid of 64 blocks of 512 rows computes all four gates' pre-activations by ONE product of the joined row
  (hidden, input) with the stacked weights, adds the stacked bias, cuts the four gates out by columns, and applies
  sigmoid / tanh and the cell update.  The reference joins the rows, takes four separate products with the transposed
  weights, spells the sigmoid as 1 / (1 + e^(-z)), and applies the same update.

  Over the extended reals a change of float format is the identity and the sigmoid IS that quotient, so both programs
  compute the same entries: row `512·a + q` of the stack is row `q` of gate `a`'s weights, and each inner product has
  the same 1024 terms in the same order on both sides (no reordering, so no finiteness is used).  Both sides are proved
  equal to one specification (`Cert.Lstm.hidden`, `Cert.Lstm.cell`): the kernel's two result arrays by running the
  launch block by block and tiling the rows, the reference's by reading its run one operation at a time.

  The frames: each kernel program runs to its end, faults nowhere and leaves its arguments unchanged by the launch
  theorem applied to the body's triple; the reference's frame is its run with the results dropped.  The idealization
  rewrote nothing, so that claim is `True`.
-/
import proofs.«156865_j317827580479_2_alg».proof.Defs
import proofs.«156865_j317827580479_2_alg».proof.Proof.Gen.Kernel
import proofs.«156865_j317827580479_2_alg».proof.Proof.Gen.KernelIdeal
import proofs.«156865_j317827580479_2_alg».proof.Proof.Gen.ReferenceIdeal
import proofs.«156865_j317827580479_2_alg».proof.Proof.Gen.Pre_finite_inputs
import proofs.«156865_j317827580479_2_alg».proof.Proof.Gen.ReferenceIdeal.Read
import proofs.«156865_j317827580479_2_alg».proof.Proof.FrameBits
import proofs.«156865_j317827580479_2_alg».proof.Proof.KernelValue
import proofs.«156865_j317827580479_2_alg».proof.Proof.RefBridge
import Idealize.ShloMosaic.Adequacy
import Idealize.ShloMosaic.Init

noncomputable section

namespace Cert.Proof

open Idealize.ShloMosaic Idealize.ShloMosaic.TcCoe Idealize.SL.Sem

/-- The kernel as printed runs, faults nowhere and keeps its arguments. -/
theorem frame_kernel : Cert.frame_Kernel := fun m ρ _ => Cert.Kernel.Hand.frame m ρ

/-- So does the kernel read over the extended reals. -/
theorem frame_kernelIdeal : Cert.frame_KernelIdeal := fun m ρ _ => Cert.KernelIdeal.Hand.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments, the kernel's two result arrays and the reference's are the LSTM cell's new
    hidden and cell arrays of those arguments. -/
theorem algebraic : Cert.algebraic_KernelIdeal_ReferenceIdeal := by
  intro m ρ m' ρ' _ hagree
  refine ⟨fun c => Cert.KernelIdeal.Hand.hiddenOut m c, fun c => Cert.KernelIdeal.Hand.cellOut m c,
    Cert.KernelIdeal.Hand.run_value m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10⟩ := hagree c
    refine (Cert.ReferenceIdeal.Read.val_main_v44_eq (F := Ideal) _ _ _ _ _ _ _ _ _ _ _).trans ?_
    rw [Cert.ReferenceIdeal.RefValue.hidden_eq, h0, h1, h2, h3, h4, h5, h6, h7, h8, h9, h10]
  · obtain ⟨h0, h1, h2, h3, h4, h5, h6, h7, h8, h9, h10⟩ := hagree c
    refine (Cert.ReferenceIdeal.Read.val_main_v42_eq (F := Ideal) _ _ _ _ _ _ _ _ _).trans ?_
    rw [Cert.ReferenceIdeal.RefValue.cell_eq, h0, h1, h2, h3, h4, h5, h6, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
